-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  reducesTo_S_S_d : S_.ReducesTo [] S_

variable [Facts]

def fn {F : FTy → Type} [FloatOps F] (main_arg0 : FVec F S65536x1024 .f32) (main_arg1 : FVec F S65536x1024 .f32) (main_arg2 : FVec F S_ .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S65536x1024 : Shape := ⟨2, ![65536, 1024]⟩
abbrev S_ : Shape := ⟨0, ![]⟩
abbrev S16x128 : Shape := ⟨2, ![16, 128]⟩
abbrev S1024x1024 : Shape := ⟨2, ![1024, 1024]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩

abbrev nBuf : Space → Nat
  | .hbm => 23
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S_, .f32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v16 : BitVec 1 := Scalar.cmpi .eq arg1 c31_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1024 : Shape := ⟨2, ![65536, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S_, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S65536x1024_S_d0_1 : S65536x1024.ReducesTo [0, 1] S_
  h_S_ : 0 < S_.numel

variable [Facts₀]

class Facts : Prop extends Facts₀ where

variable [Facts]
-- ==== Proof.Pieces.lean ====
/-
  What one run of the kernel body leaves behind, as values.

  The body keeps a 1×1 accumulator. At the first step of a row half it stores zero into the accumulator and reads it
  back; at every step it adds the step's tile sum to the accumulator; at the last step of a row half it also fills the
  8×128 output block with the accumulator's entry. Read through the whole-buffer rectangles of its loads and stores:

    first step      accumulator  =  step (x, y, 0-splat)
    middle step     accumulator  =  step (x, y, previous accumulator)
    last step       accumulator  =  step (x, y, previous accumulator),   output block = fill (that accumulator)

  where `step` is the body's second stored value and `fill` its third. These hold for any float instance.
-/
import proofs.«116707_j14628658610180_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access, as the constant function. -/
theorem zero_offsets : (![0, 0] : Fin 2 → Nat) = fun _ => 0 := funext fun a => by fin_cases a <;> rfl

/-- First step of a row half: the accumulator is zeroed, read back, and the tile sum added to it. -/
theorem acc_first (c : Dev nD) (i : grid0.Coords) (a2 : Memref sig .tc .vmem S1024x1024 .f32) (h2 : a2.IsWhole)
    (a3 : Memref sig .tc .vmem S1024x1024 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S1024x1024 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) zero_offsets, View.readCov_unit_zero (S := S1x1) _ zero_offsets]
  simp only [View.readAt_eq_ld, h2.read_unread, h3.read_unread, View.ld_unit_zero (S := S1024x1024) zero_offsets]

/-- A middle step: the tile sum is added to what the step before left in the accumulator. -/
theorem acc_middle (c : Dev nD) (i : grid0.Coords) (a2 : Memref sig .tc .vmem S1024x1024 .f32) (h2 : a2.IsWhole)
    (a3 : Memref sig .tc .vmem S1024x1024 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S1024x1024 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero (S := S1x1) zero_offsets]
  simp only [View.readAt_eq_ld, h2.read_unread, h3.read_unread, h5.read_unread,
    View.ld_unit_zero (S := S1024x1024) zero_offsets, View.ld_unit_zero (S := S1x1) zero_offsets]

/-- The last step of a row half, the accumulator: as at a middle step. -/
theorem acc_last (c : Dev nD) (i : grid0.Coords) (a2 : Memref sig .tc .vmem S1024x1024 .f32) (h2 : a2.IsWhole)
    (a3 : Memref sig .tc .vmem S1024x1024 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S1024x1024 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) zero_offsets]
  simp only [View.readAt_eq_ld, h2.read_unread, h3.read_unread, h5.read_unread,
    View.ld_unit_zero (S := S1024x1024) zero_offsets, View.ld_unit_zero (S := S1x1) zero_offsets]

/-- The last step of a row half, the output block: filled with the accumulator the step has just written. -/
theorem out_last (c : Dev nD) (i : grid0.Coords) (a2 : Memref sig .tc .vmem S1024x1024 .f32) (h2 : a2.IsWhole)
    (a3 : Memref sig .tc .vmem S1024x1024 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S1024x1024 .f32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S8x128) zero_offsets, View.readCov_unit_zero (S := S1x1) _ zero_offsets]
  simp only [View.readAt_eq_ld, h2.read_unread, h3.read_unread, h5.read_unread,
    View.ld_unit_zero (S := S1024x1024) zero_offsets, View.ld_unit_zero (S := S1x1) zero_offsets]

end Cert.KernelIdeal.Pieces

end
-- ==== Proof.Payload.lean ====
/-
  The body's stored values on the extended reals, entry by entry.

  `step x y a` is the 1×1 array whose entry is `a + Σ_r Σ_l (x[r,l] − y[r,l])²`: the squared differences are summed
  along the lanes of each row (the body's first reduction), the 1024 row sums are recast as a column and summed (its
  second), and the total is added to the accumulator. On the extended reals a reduction's zero start value is absent
  from the sum. `fill a` is the 8×128 array every entry of which is the entry of `a`; the zero splat's entry is 0.
-/
import proofs.«116707_j14628658610180_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open scoped BigOperators

namespace Cert.KernelIdeal.Payload

open Cert.KernelIdeal Cert.KernelIdeal.Gen Idealize.ShloMosaic.ValueIdx

/-- The accumulator after a step: its entry before, plus the sum over the tile's rows and lanes of the squared
    differences. -/
theorem step_apply (x0 x1 : Vec Ideal S1024x1024 .f32) (acc : Vec Ideal S1x1 .f32) (p q : Fin 1) :
    k0_pay2 (F := Ideal) x0 x1 acc (ix2 p q)
      = acc (ix2 p q) + ∑ r : Fin 1024, ∑ l : Fin 1024, (x0 (ix2 r l) - x1 (ix2 r l)) * (x0 (ix2 r l) - x1 (ix2 r l)) := by
  unfold k0_pay2
  refine (congrFun (shapeCast_self _ _) _).trans ?_
  refine congrArg (acc (ix2 p q) + ·) ?_
  -- the 1-vector of the column sum, recast 1×1
  refine (shapeCast_a_1a_apply _ _ p q).trans ?_
  -- the column sum: over the 1024 rows
  refine (Ideal.multiReduction_add_single _ _ _ _ _ _).trans ?_
  refine Finset.sum_congr rfl fun (r : Fin 1024) _ => ?_
  -- the row sums recast as a column: entry (r, 0) is row sum r
  refine (shapeCast_apply _ _ _ (ix1 r) ?_).trans ?_
  · rw [Shape.rowMajor_val_one, Shape.rowMajor_val_two]
    show r.val = r.val * 1 + q.val
    omega
  -- the row sum: over the 1024 lanes
  refine (Ideal.multiReduction_add_single _ _ _ _ _ _).trans ?_
  refine Finset.sum_congr rfl fun (l : Fin 1024) _ => ?_
  have e : reduces_S1024x1024_S1024.lift (ix1 r) l = ix2 r l :=
    funext fun a => Fin.ext (by match a with | ⟨0, _⟩ => rfl | ⟨1, _⟩ => rfl)
  rw [e]
  rfl

/-- Every entry of the filled output block is the accumulator's entry. -/
theorem fill_apply (v : Vec Ideal S1x1 .f32) (j : S8x128.Idx) : k0_pay3 (F := Ideal) v j = v (ix2 0 0) := by
  unfold k0_pay3
  show v _ = v _
  exact congrArg v (funext fun a => Fin.ext (by match a with | ⟨0, _⟩ => rfl | ⟨1, _⟩ => rfl))

/-- The zero splat's entry is the extended real 0. -/
theorem zero_apply (j : S1x1.Idx) : k0_pay1 (F := Ideal) j = 0 := by
  unfold k0_pay1
  refine (congrFun (shapeCast_self _ _) _).trans ?_
  show Ideal.ofBits .f32 0x00000000#32 = 0
  exact Ideal.ofBits_zero_f32

end Cert.KernelIdeal.Payload

end
-- ==== Proof.LibBlockedSum.lean ====
/-
  A sum over a long axis cut into equal blocks, and an accumulator that runs over the blocks.

  An axis of `B * K` positions is `B` blocks of `K` positions; position `j` of block `b` is `b * K + j`.  In any
  commutative additive monoid the sum over the whole axis is the sum over the blocks of each block's sum
  (`sum_blocks`): only commutativity and associativity of `+` are used, so the law holds for the extended reals with
  their infinities and needs no finiteness.

  An accumulator that is set to `0` before the first block's partial sum is added, and to which every later block's
  partial sum is added in turn, holds after block `b` the sum of the partial sums of blocks `0 … b`
  (`acc_eq_sum_range`), and after the last of `n + 1` blocks the sum over all of them (`acc_last_eq_sum`).
  Together: a contraction accumulated block by block along its contracted axis is the whole contraction
  (`acc_last_eq_sum_blocks`).
-/
import Mathlib.Algebra.BigOperators.Fin
import Mathlib.Algebra.BigOperators.Intervals
import Mathlib.Logic.Equiv.Fin.Basic

open scoped BigOperators

namespace Idealize.ShloMosaic.BlockedSum

variable {M : Type*} [AddCommMonoid M]

/-- Position `j` of block `b` on an axis of `B` blocks of `K` positions each. -/
def pos (B K : ℕ) (b : Fin B) (j : Fin K) : Fin (B * K) :=
  ⟨b.val * K + j.val, by
    have hb := b.isLt
    have hj := j.isLt
    calc b.val * K + j.val < b.val * K + K := Nat.add_lt_add_left hj _
      _ = (b.val + 1) * K := (Nat.succ_mul b.val K).symm
      _ ≤ B * K := Nat.mul_le_mul_right K hb⟩

@[simp] theorem pos_val (B K : ℕ) (b : Fin B) (j : Fin K) : (pos B K b j).val = b.val * K + j.val := rfl

/-- The sum over the whole axis is the sum, over the blocks, of each block's sum. -/
theorem sum_blocks (B K : ℕ) (f : Fin (B * K) → M) :
    ∑ k : Fin (B * K), f k = ∑ b : Fin B, ∑ j : Fin K, f (pos B K b j) := by
  rw [← Equiv.sum_comp (finProdFinEquiv (m := B) (n := K)) f, Fintype.sum_prod_type]
  refine Finset.sum_congr rfl fun b _ => Finset.sum_congr rfl fun j _ => congrArg f (Fin.ext ?_)
  simp only [finProdFinEquiv_apply_val, pos_val]
  rw [Nat.add_comm, Nat.mul_comm]

/-- The same over an axis whose length `N` is only KNOWN to be `B * K` (a literal such as `16384 = 128 * 128`). -/
theorem sum_blocks_of_eq {N : ℕ} (B K : ℕ) (h : N = B * K) (f : Fin N → M) :
    ∑ k : Fin N, f k = ∑ b : Fin B, ∑ j : Fin K, f (Fin.cast h.symm (pos B K b j)) := by
  subst h
  exact sum_blocks B K f

/-- An accumulator reset to `0` before block `0` is added and then fed every later block holds, after block `b`,
    the sum of the blocks `0 … b`. -/
theorem acc_eq_sum_range (d acc : ℕ → M) (h0 : acc 0 = 0 + d 0) (hs : ∀ b, acc (b + 1) = acc b + d (b + 1)) (b : ℕ) :
    acc b = ∑ j ∈ Finset.range (b + 1), d j := by
  induction b with
  | zero => rw [h0, zero_add, Finset.sum_range_one]
  | succ n ih => rw [hs, ih, Finset.sum_range_succ (n := n + 1)]

/-- After the last of `n + 1` blocks it holds the sum over all of them. -/
theorem acc_last_eq_sum (n : ℕ) (d : Fin (n + 1) → M) (acc : ℕ → M)
    (h0 : acc 0 = 0 + d 0)
    (hs : ∀ b (hb : b + 1 < n + 1), acc (b + 1) = acc b + d ⟨b + 1, hb⟩) :
    acc n = ∑ b : Fin (n + 1), d b := by
  have key : ∀ b (hb : b < n + 1), acc b = ∑ j : Fin (b + 1), d (Fin.castLE hb j) := by
    intro b
    induction b with
    | zero => intro _; rw [h0, zero_add, Fin.sum_univ_one]; rfl
    | succ k ih =>
      intro hb
      rw [hs k hb, ih (Nat.lt_of_succ_lt hb), Fin.sum_univ_castSucc (n := k + 1)]
      rfl
  rw [key n (Nat.lt_succ_self n)]
  exact Finset.sum_congr rfl fun j _ => congrArg d (Fin.ext rfl)

/-- A contraction over an axis of `(n + 1) * K` positions, accumulated block by block from a zero accumulator, is the
    whole contraction. -/
theorem acc_last_eq_sum_blocks (n K : ℕ) (f : Fin ((n + 1) * K) → M) (acc : ℕ → M)
    (h0 : acc 0 = 0 + ∑ j : Fin K, f (pos (n + 1) K 0 j))
    (hs : ∀ b (hb : b + 1 < n + 1), acc (b + 1) = acc b + ∑ j : Fin K, f (pos (n + 1) K ⟨b + 1, hb⟩ j)) :
    acc n = ∑ k : Fin ((n + 1) * K), f k := by
  rw [sum_blocks (n + 1) K f]
  exact acc_last_eq_sum n (fun b => ∑ j : Fin K, f (pos (n + 1) K b j)) acc h0 hs

end Idealize.ShloMosaic.BlockedSum
-- ==== Proof.Spec.lean ====
/-
  The specification: the sum of squared differences, and how the kernel's accumulation reaches it.

  For arrays `A`, `B` of 65536 × 1024 extended reals let `sq A B j = (A j − B j)²`. The 65536 rows are 64 tiles of
  1024 rows; `tile A B n` is the sum of `sq` over tile `n` (its 1024 rows and 1024 lanes). The kernel walks the tiles
  in order with one accumulator that restarts at every 32nd tile: `accAt T n` is what it holds after tile `n` —
  `T n` alone when `n` is a multiple of 32, the value after tile `n − 1` plus `T n` otherwise. So after tile 31 it holds
  the first row half's sum, after tile 63 the second's, and the two add up to the sum of `sq` over the whole array
  (`total`). Only commutativity and associativity of `+` are used: the law holds on the extended reals as it stands,
  with no finiteness assumption.
-/
import Idealize.ShloMosaic.PureOps.Ideal
import Idealize.ShloMosaic.Lib.ValueIdx
import proofs.«116707_j14628658610180_2_alg».proof.Proof.LibBlockedSum

noncomputable section

open Idealize.ShloMosaic Idealize.ShloMosaic.ValueIdx
open scoped BigOperators

namespace Cert.SumSq

/-- The arguments' shape. -/
abbrev Big : Shape := ⟨2, ![65536, 1024]⟩

/-- Row `r` of tile `n` (tiles beyond the 64th wrap around; only tiles 0 … 63 are ever read). -/
def row (n : ℕ) (r : Fin 1024) : Fin 65536 := ⟨(1024 * n + r.val) % 65536, Nat.mod_lt _ (by norm_num)⟩

theorem row_val (n : ℕ) (hn : n < 64) (r : Fin 1024) : (row n r).val = n * 1024 + r.val := by
  have := r.isLt
  show (1024 * n + r.val) % 65536 = _
  omega

/-- The squared difference at an index. -/
def sq (A B : Big.Idx → EReal) (j : Big.Idx) : EReal := (A j - B j) * (A j - B j)

/-- The sum of the squared differences over tile `n`. -/
def tile (A B : Big.Idx → EReal) (n : ℕ) : EReal := ∑ r : Fin 1024, ∑ l : Fin 1024, sq A B (ix2 (row n r) l)

section Accumulator

variable {M : Type*} [AddCommMonoid M]

/-- An accumulator fed `T 0, T 1, …` that restarts at every multiple of 32. -/
def accAt (T : ℕ → M) : ℕ → M
  | 0 => T 0
  | n + 1 => if (n + 1) % 32 = 0 then T (n + 1) else accAt T n + T (n + 1)

theorem accAt_zero (T : ℕ → M) : accAt T 0 = T 0 := rfl

theorem accAt_restart (T : ℕ → M) (n : ℕ) (h : (n + 1) % 32 = 0) : accAt T (n + 1) = T (n + 1) := by
  rw [accAt, if_pos h]

theorem accAt_step (T : ℕ → M) (n : ℕ) (h : ¬(n + 1) % 32 = 0) : accAt T (n + 1) = accAt T n + T (n + 1) := by
  rw [accAt, if_neg h]

/-- After step `n` it holds the terms since the last restart. -/
theorem accAt_eq (T : ℕ → M) (n : ℕ) : accAt T n = ∑ k ∈ Finset.range (n % 32 + 1), T (n - n % 32 + k) := by
  induction n with
  | zero => simp [accAt]
  | succ n ih =>
    by_cases h : (n + 1) % 32 = 0
    · rw [accAt_restart T n h, h]; simp
    · have h1 : (n + 1) % 32 = n % 32 + 1 := by omega
      have h2 : n + 1 - (n % 32 + 1) = n - n % 32 := by omega
      rw [accAt_step T n h, h1, h2, Finset.sum_range_succ, ih]
      congr 2
      omega

/-- After steps 31 and 63 together: every term from 0 to 63. -/
theorem halves (T : ℕ → M) : accAt T 31 + accAt T 63 = ∑ k ∈ Finset.range 64, T k := by
  have e1 : accAt T 31 = ∑ k ∈ Finset.range 32, T k := by
    rw [accAt_eq]; simp only [Nat.reduceMod, Nat.reduceAdd, Nat.reduceSub, zero_add]
  have e2 : accAt T 63 = ∑ k ∈ Finset.range 32, T (32 + k) := by
    rw [accAt_eq]
  rw [e1, e2, ← Finset.sum_range_add]

end Accumulator

/-- The two row halves' accumulated sums add up to the sum over the whole array. -/
theorem total (A B : Big.Idx → EReal) :
    accAt (tile A B) 31 + accAt (tile A B) 63 = ∑ j : Big.Idx, sq A B j := by
  refine ((halves _).trans ?_).trans (sum_idx2 _).symm
  refine Eq.trans ?_ (BlockedSum.sum_blocks_of_eq 64 1024 (by norm_num) _).symm
  rw [Finset.sum_range]
  refine Finset.sum_congr rfl fun k _ => Finset.sum_congr rfl fun r _ => Finset.sum_congr rfl fun l _ => ?_
  have e : row k.val r = Fin.cast (by norm_num : 64 * 1024 = 65536) (BlockedSum.pos 64 1024 k r) :=
    Fin.ext (by rw [row_val k.val k.isLt r]; rfl)
  rw [e]

end Cert.SumSq

end
-- ==== Proof.Accum.lean ====
/-
  The accumulator across the grid, on the extended reals.

  The grid has 64 points in order; point `t` stages tile `t` of each argument (rows 1024·t … 1024·t + 1023, all lanes).
  So the body's step at point `t` adds `tile A B t` to the accumulator's entry, where `A`, `B` are the argument arrays
  as the region finds them. The accumulator is zeroed at the points that are multiples of 32 and is carried from the point
  before at all others: by induction on the point its entry after point `n` is `accAt (tile A B) n`. At the points
  ≡ 31 (mod 32) — the last of each row half — the output block is filled with that entry.
-/
import proofs.«116707_j14628658610180_2_alg».proof.Proof.Gen.KernelIdeal.Frame
import proofs.«116707_j14628658610180_2_alg».proof.Proof.Pieces
import proofs.«116707_j14628658610180_2_alg».proof.Proof.Payload
import proofs.«116707_j14628658610180_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)
open scoped BigOperators

namespace Cert.KernelIdeal.Accum
open Cert.KernelIdeal Cert.KernelIdeal.Gen Idealize.ShloMosaic.ValueIdx Cert.SumSq

variable (m : (ℓ : Loc nD τ sig) → Buf (Elt Ideal) ℓ)

/-- The block indices, decided once over the grid: point `t` stages row block `t` of each argument, and writes back
    output block `t / 32`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 32 ∧ win0_2.index t (1 : Fin 2) = 0 :=
  (by decide +kernel : ∀ t : Fin grid0.N, _)

/-- Entry (r, l) of the first argument's block at point `t` is the array's entry at row `r` of tile `t`, lane `l`. -/
theorem iblk0_apply (c : Dev nD) (t : Fin cfg0.N) (r l : Fin 1024) :
    (iblk m c 0 t : Vec Ideal S1024x1024 .f32) (ix2 r l) = V m c main_arg0 (ix2 (row t.val r) l) := by
  have hN : t.val < 64 := lt_of_lt_of_eq t.isLt (show cfg0.N = 64 from N_0)
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * r.val = (row t.val r).val; rw [row_val _ hN r, e0]; omega
  | ⟨1, _⟩ => show win0_0.index t (1 : Fin 2) * 1024 + 1 * l.val = l.val; rw [e1]; omega

/-- The same for the second argument. -/
theorem iblk1_apply (c : Dev nD) (t : Fin cfg0.N) (r l : Fin 1024) :
    (iblk m c 1 t : Vec Ideal S1024x1024 .f32) (ix2 r l) = V m c main_arg1 (ix2 (row t.val r) l) := by
  have hN : t.val < 64 := lt_of_lt_of_eq t.isLt (show cfg0.N = 64 from N_0)
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * r.val = (row t.val r).val; rw [row_val _ hN r, e0]; omega
  | ⟨1, _⟩ => show win0_1.index t (1 : Fin 2) * 1024 + 1 * l.val = l.val; rw [e1]; omega

/-- The tile sums of the argument arrays as the region finds them. -/
abbrev T (c : Dev nD) : ℕ → EReal := tile (V m c main_arg0) (V m c main_arg1)

/-- The body's step at point `t` adds tile `t`'s sum to the accumulator's entry. -/
theorem step_tile (c : Dev nD) (t : Fin cfg0.N) (acc : Vec Ideal S1x1 .f32) :
    k0_pay2 (F := Ideal) (iblk m c 0 t) (iblk m c 1 t) acc (ix2 0 0) = acc (ix2 0 0) + T m c t.val := by
  refine (Payload.step_apply (iblk m c 0 t) (iblk m c 1 t) acc 0 0).trans ?_
  refine congrArg (acc (ix2 0 0) + ·) ?_
  refine Finset.sum_congr rfl fun r _ => Finset.sum_congr rfl fun l _ => ?_
  show _ = SumSq.sq _ _ _
  unfold SumSq.sq
  rw [iblk0_apply m c t r l, iblk1_apply m c t r l]

/-- What the accumulator holds after a point, case by case, as the body's stored values of the point's blocks. -/
theorem acc_A (c : Dev nD) (t : Fin cfg0.N) (h0 : t.val % 32 = 0) (h1 : ¬t.val % 32 = 31) :
    (outsAt0 m c t.val t.isLt).2 = k0_pay2 (iblk m c 0 t) (iblk m c 1 t) (k0_pay1 (F := Ideal)) := by
  rw [outsAt0_A m c t h0 h1]
  exact Pieces.acc_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

theorem acc_B (c : Dev nD) (t : Fin cfg0.N) (h0 : ¬t.val % 32 = 0) (h1 : ¬t.val % 32 = 31) :
    (outsAt0 m c t.val t.isLt).2 = k0_pay2 (iblk m c 0 t) (iblk m c 1 t)
      (outsAt0 m c (t.val - 1) (Nat.lt_of_le_of_lt (Nat.sub_le _ _) t.isLt)).2 := by
  rw [outsAt0_B m c t h0 h1]
  exact Pieces.acc_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t) _

theorem acc_C (c : Dev nD) (t : Fin cfg0.N) (h0 : ¬t.val % 32 = 0) (h1 : t.val % 32 = 31) :
    (outsAt0 m c t.val t.isLt).2 = k0_pay2 (iblk m c 0 t) (iblk m c 1 t)
      (outsAt0 m c (t.val - 1) (Nat.lt_of_le_of_lt (Nat.sub_le _ _) t.isLt)).2 := by
  rw [outsAt0_C m c t h0 h1]
  exact Pieces.acc_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t) _

theorem out_C (c : Dev nD) (t : Fin cfg0.N) (h0 : ¬t.val % 32 = 0) (h1 : t.val % 32 = 31) :
    (outsAt0 m c t.val t.isLt).1 = k0_pay3 (outsAt0 m c t.val t.isLt).2 := by
  rw [acc_C m c t h0 h1, outsAt0_C m c t h0 h1]
  exact Pieces.out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t) _

/-- The accumulator's entry after point `n` is the restarting accumulator of the tile sums. -/
theorem acc_eq (c : Dev nD) : ∀ (n : ℕ) (hn : n < cfg0.N), (outsAt0 m c n hn).2 (ix2 0 0) = accAt (T m c) n
  | 0, hn => by
    rw [acc_A m c ⟨0, hn⟩ rfl (by show ¬(0 % 32 = 31); decide)]
    refine (step_tile m c ⟨0, hn⟩ _).trans ?_
    rw [Payload.zero_apply, zero_add]
    rfl
  | n + 1, hn => by
    by_cases h0 : (n + 1) % 32 = 0
    · have h1 : ¬(n + 1) % 32 = 31 := by omega
      rw [acc_A m c ⟨n + 1, hn⟩ h0 h1]
      refine (step_tile m c ⟨n + 1, hn⟩ _).trans ?_
      rw [Payload.zero_apply, zero_add, accAt_restart _ _ h0]
    · have ih := acc_eq c n (Nat.lt_of_succ_lt hn)
      by_cases h1 : (n + 1) % 32 = 31
      · rw [acc_C m c ⟨n + 1, hn⟩ h0 h1]
        refine (step_tile m c ⟨n + 1, hn⟩ _).trans ?_
        rw [accAt_step _ _ h0]
        exact congrArg (· + T m c (n + 1)) ih
      · rw [acc_B m c ⟨n + 1, hn⟩ h0 h1]
        refine (step_tile m c ⟨n + 1, hn⟩ _).trans ?_
        rw [accAt_step _ _ h0]
        exact congrArg (· + T m c (n + 1)) ih

/-- At the last point of a row half every entry of the output block is that accumulator. -/
theorem out_eq (c : Dev nD) (t : Fin cfg0.N) (h1 : t.val % 32 = 31) (j : S8x128.Idx) :
    (outsAt0 m c t.val t.isLt).1 j = accAt (T m c) t.val := by
  have h0 : ¬t.val % 32 = 0 := by omega
  rw [out_C m c t h0 h1]
  exact (Payload.fill_apply _ j).trans (acc_eq m c t.val t.isLt)

end Cert.KernelIdeal.Accum
end
-- ==== Proof.Final.lean ====
/-
  The output array after the region.

  The output is 16 × 128 in two blocks of 8 rows; block `p` is written back once, at point 32·p + 31, the last point
  of row half `p`, when it has just been filled with the accumulator's entry. The two blocks cover the array, so after
  the region entry (a, b) holds `accAt (tile A B) (32·(a / 8) + 31)`: the first row half's sum in rows 0–7, the
  second's in rows 8–15.
-/
import proofs.«116707_j14628658610180_2_alg».proof.Proof.Accum

set_option maxRecDepth 16384

noncomputable section

open Idealize.ShloMosaic Idealize.ShloMosaic.TcCoe Idealize.SL.Sem
open Idealize.ShloMosaic.Pipeline (Dat)
open scoped BigOperators

namespace Cert.KernelIdeal.Final
open Cert.KernelIdeal Cert.KernelIdeal.Gen Idealize.ShloMosaic.ValueIdx Cert.SumSq Cert.KernelIdeal.Accum

variable (m : (ℓ : Loc nD τ sig) → Buf (Elt Ideal) ℓ) (ρ : Dev nD → PrngReg)

/-- The output array after the region: rows 0–7 hold the first half's sum, rows 8–15 the second's. -/
def G (c : Dev nD) : Buf (Elt Ideal) ((c : Thread nD τ).loc main_v0) :=
  fun j => (accAt (M := EReal) (T m c) (32 * ((j 0).val / 8) + 31) : EReal)

/-- What a flushing point writes back is its block of `G`. -/
theorem flushed_eq (c : Dev nD) (t : Fin cfg0.N) (hf : (cfg0.win 2).flush t = true) :
    (dats m 0 c).flushed 2 t = ((cfg0.win 2).blk t).view.read (Elt Ideal) (G m c) := by
  have h31 : t.val % 32 = 31 := (flush0_2 t).mp hf
  obtain ⟨-, -, -, -, e4, e5⟩ := idx_facts t
  show (cfg0.win 2).cut (grid0.coords t) ((dats m 0 c).after 2 t) = _
  rw [after0_2]
  funext j
  show (outsAt0 m c t.val t.isLt).1 j = G m c (((cfg0.win 2).blk t).view.emb j)
  rw [out_eq m c t h31 j]
  unfold G
  congr 1
  have hj : (j 0).val < 8 := (j 0).isLt
  show t.val = 32 * ((win0_2.index t (0 : Fin 2) * 8 + 1 * (j 0).val) / 8) + 31
  rw [e4]; omega

/-- An index is in point `t`'s output block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Row `a` lies in the block flushed at point 32·(a / 8) + 31, so the flushed blocks cover the array and it ends at `G`. -/
theorem final (c : Dev nD) : (dats m 0 c).arrAt 2 cfg0.N = G m c :=
  (dats m 0 c).arrAt_eq_of_cover 2 (G m c) (flushed_eq m c) fun i => by
    have hi0 : (i 0).val < 16 := (i 0).isLt
    have hi1 : (i 1).val < 128 := (i 1).isLt
    have hN : cfg0.N = 64 := N_0
    let t : Fin cfg0.N := ⟨32 * ((i 0).val / 8) + 31, by omega⟩
    obtain ⟨-, -, -, -, e4, e5⟩ := idx_facts t
    have ht : t.val = 32 * ((i 0).val / 8) + 31 := rfl
    refine ⟨t, (flush0_2 t).mpr (by rw [ht]; omega), ?_⟩
    rw [mem_blk]
    intro a
    match a with
    | ⟨0, _⟩ => show win0_2.index t (0 : Fin 2) * 8 ≤ (i 0).val ∧ (i 0).val < win0_2.index t (0 : Fin 2) * 8 + 8; rw [e4, ht]; omega
    | ⟨1, _⟩ => show win0_2.index t (1 : Fin 2) * 128 ≤ (i 1).val ∧ (i 1).val < win0_2.index t (1 : Fin 2) * 128 + 128; rw [e5]; omega

end Cert.KernelIdeal.Final
end
-- ==== Proof.Finish.lean ====
/-
  The closing scalar arithmetic, common to both programs.

  Both programs end with the same scalar expression of the sum `s` of squared differences and the scalar argument `c`:

      (k₁ · log k₀ − k₂ · c) − (k₄ · exp (k₃ · c)) · s

  with the same five float literals, applied in the same order. It is kept as one function of `s` and `c` and never
  opened: the two programs agree as soon as their sums agree.
-/
import proofs.«116707_j14628658610180_2_alg».proof.Proof.Spec

noncomputable section

open Idealize.ShloMosaic Idealize.ShloMosaic.ValueIdx
open scoped BigOperators

namespace Cert.SumSq

/-- The scalar shape. -/
abbrev S0 : Shape := ⟨0, ![]⟩

/-- The closing arithmetic as a function of the sum `s` and the scalar argument `x2`. -/
def finish (s x2 : FVec Ideal S0 .f32) : FVec Ideal S0 .f32 :=
  subf
    (subf (mulf (constant (F := Ideal) S0 .f32 0xCC000000#32) (Host.log (F := Ideal) (constant (F := Ideal) S0 .f32 0x40C90FDB#32)))
      (mulf (constant (F := Ideal) S0 .f32 0x47000000#32) x2))
    (mulf
      (mulf (constant (F := Ideal) S0 .f32 0x3F000000#32)
        (Host.exp (F := Ideal) (mulf (constant (F := Ideal) S0 .f32 0xC0000000#32) x2)))
      s)

/-- What both programs compute: the closing arithmetic of the sum of squared differences over the whole arrays. -/
def result (A B : Big.Idx → EReal) (x2 : FVec Ideal S0 .f32) : FVec Ideal S0 .f32 :=
  finish (fun _ => ∑ j : Big.Idx, sq A B j) x2

end Cert.SumSq

end
-- ==== Proof.Tail.lean ====
/-
  The kernel's result.

  After the region the host reads entry (0, 0) and entry (8, 0) of the 16 × 128 array — the two row halves' sums —,
  adds them, and applies the closing arithmetic to the total and the scalar argument. By the regrouping law the total is
  the sum of the squared differences over the whole arrays, so the kernel ends at `result` of its three arguments.
-/
import proofs.«116707_j14628658610180_2_alg».proof.Proof.Final
import proofs.«116707_j14628658610180_2_alg».proof.Proof.Finish
import Idealize.ShloMosaic.Lib.StableHlo.Run

set_option maxRecDepth 16384

noncomputable section

open Idealize.ShloMosaic Idealize.ShloMosaic.TcCoe Idealize.SL.Sem
open Idealize.ShloMosaic.Pipeline (Dat)
open scoped BigOperators

namespace Cert.KernelIdeal.Tail
open Cert.KernelIdeal Cert.KernelIdeal.Gen Idealize.ShloMosaic.ValueIdx Cert.SumSq Cert.KernelIdeal.Accum Cert.KernelIdeal.Final

variable (m : (ℓ : Loc nD τ sig) → Buf (Elt Ideal) ℓ) (ρ : Dev nD → PrngReg)

/-- A 1 × 1 array has one index. -/
theorem idx11_eq (a : S1x1.Idx) : a = ix2 0 0 := by
  funext d; apply Fin.ext
  match d with
  | ⟨0, _⟩ => exact Nat.lt_one_iff.mp (a 0).isLt
  | ⟨1, _⟩ => exact Nat.lt_one_iff.mp (a 1).isLt

/-- The 1 × 1 slice at row `r`, lane 0, recast as a scalar, is the array's entry (r, 0). -/
theorem pick (X : S16x128.Idx → EReal) (r : ℕ) (hr : r < 16) (h : S16x128.Slices ![r, 0] S1x1) (h' : S1x1.ShapeCasts S_) (i : S_.Idx) :
    shapeCast S_ (extractStridedSlice S1x1 ![r, 0] X h) h' i = X (ix2 ⟨r, hr⟩ 0) := by
  unfold shapeCast
  rw [idx11_eq (Shape.reshapeEquiv _ i)]
  exact extractStridedSlice_apply _ X h _ _ fun a => by
    match a with
    | ⟨0, _⟩ => rfl
    | ⟨1, _⟩ => rfl

/-- The host operations after the region, applied to the region's output array and the scalar argument, give `result`. -/
theorem tail_eq (c : Dev nD) :
    Pipeline.afterTail₀ cfgs (dats m) 0 (V0 m) [hostOps1] c main_v14
      = result (m ((c : Thread nD τ).loc main_arg0)) (m ((c : Thread nD τ).loc main_arg1)) (m ((c : Thread nD τ).loc main_arg2)) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v0) = G m c :=
    (Pipeline.withArrays_arr spec0 launch0.win.arr_inj c _ _ 2).trans (final m c)
  have h2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [hA, h2]
  show finish (addf (fun i => shapeCast S_ (extractStridedSlice S1x1 ![0, 0] (G m c) slices_S16x128_S1x1_0_0) shapeCasts_S1x1_S_ i)
      (fun i => shapeCast S_ (extractStridedSlice S1x1 ![8, 0] (G m c) slices_S16x128_S1x1_8_0) shapeCasts_S1x1_S_ i))
    (m ((c : Thread nD τ).loc main_arg2)) = _
  unfold result
  refine congrArg (fun s => finish s (m ((c : Thread nD τ).loc main_arg2))) ?_
  funext i
  show ((shapeCast S_ (extractStridedSlice S1x1 ![0, 0] (G m c) slices_S16x128_S1x1_0_0) shapeCasts_S1x1_S_ i : EReal)
    + (shapeCast S_ (extractStridedSlice S1x1 ![8, 0] (G m c) slices_S16x128_S1x1_8_0) shapeCasts_S1x1_S_ i : EReal)) = _
  rw [pick (G m c) 0 (by decide), pick (G m c) 8 (by decide)]
  have g0 : G m c (ix2 (⟨0, by decide⟩ : Fin 16) (0 : Fin 128)) = accAt (M := EReal) (T m c) 31 := by
    unfold G
    exact congrArg (accAt (M := EReal) (T m c)) (by show 32 * ((0 : ℕ) / 8) + 31 = 31; norm_num)
  have g8 : G m c (ix2 (⟨8, by decide⟩ : Fin 16) (0 : Fin 128)) = accAt (M := EReal) (T m c) 63 := by
    unfold G
    exact congrArg (accAt (M := EReal) (T m c)) (by show 32 * ((8 : ℕ) / 8) + 31 = 63; norm_num)
  rw [g0, g8]
  exact total (m ((c : Thread nD τ).loc main_arg0)) (m ((c : Thread nD τ).loc main_arg1))

/-- The kernel's run, read: the result at the closing arithmetic of the whole sum, the arguments unchanged. -/
theorem run : θ_run defs (onTc (τ := τ) (main (F := Ideal))) ⟨m, fun _ => 0, ρ⟩ fun r => ∀ c : Dev nD,
      r.2.mem ((c.tc : Thread nD τ).loc main_v14)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Tail
end
-- ==== Proof.RefSide.lean ====
/-
  The reference on the extended reals.

  The reference subtracts and squares entry by entry, sums the squares over both axes at once starting from zero, and
  applies the closing arithmetic. A host sum over every axis is its start value plus the sum over all indices, and the
  start value is 0: the reference's sum is the sum of `sq` over the whole arrays, and its result is `result`.
-/
import proofs.«116707_j14628658610180_2_alg».proof.Proof.Gen.ReferenceIdeal.Read
import proofs.«116707_j14628658610180_2_alg».proof.Proof.Finish
import Idealize.ShloMosaic.PureOps.Ideal.Laws

noncomputable section

open Idealize.ShloMosaic Idealize.ShloMosaic.TcCoe Idealize.SL.Sem
open scoped BigOperators

namespace Cert.ReferenceIdeal.RefValue
open Cert.ReferenceIdeal Cert.ReferenceIdeal.Read Cert.SumSq

/-- The reference's reduction is the sum of the squared differences over all indices. -/
theorem sum_eq (x0 x1 : FVec Ideal S65536x1024 .f32) :
    val_main_v2 (F := Ideal) x0 x1 = fun _ => ∑ j : Big.Idx, sq x0 x1 j := by
  funext i
  rw [val_main_v2_apply]
  show Ideal.ofBits .f32 0x00000000#32 + ∑ j : Big.Idx, sq x0 x1 j = _
  rw [Ideal.ofBits_zero_f32, zero_add]

/-- The reference's last stage is the common result. -/
theorem result_eq (x0 x1 : FVec Ideal S65536x1024 .f32) (x2 : FVec Ideal S_ .f32) :
    val_main_v11 (F := Ideal) x0 x1 x2 = result x0 x1 x2 := by
  show finish (val_main_v2 (F := Ideal) x0 x1) x2 = _
  rw [sum_eq]
  rfl

end Cert.ReferenceIdeal.RefValue
end
-- ==== Proof.lean ====
/-
  The kernel and the reference compute the same Gaussian log-likelihood on the extended reals.

  Both programs take arrays `o`, `x` of 65536 × 1024 floats and a scalar `c`, form the sum `s` of the squared
  differences `(o − x)²`, and return `(k₁ · log k₀ − k₂ · c) − (k₄ · exp (k₃ · c)) · s` with the same literals.

  The reference takes `s` in one reduction over both axes. The kernel walks 64 tiles of 1024 rows: within a tile it sums
  each row's lanes and then the 1024 row sums, and adds the tile's sum to a 1×1 accumulator that it zeroes at tiles 0 and
  32; after tiles 31 and 63 it writes the accumulator into rows 0–7 and rows 8–15 of a 16 × 128 array, and the host adds
  entries (0, 0) and (8, 0). These are two groupings of one sum. Addition on the extended reals is commutative and
  associative, infinities included, so the two agree at every input: the precondition is never opened.

  The modules: `Spec` (the sum, the tiles, the restarting accumulator, and the regrouping law), `Finish` (the closing
  arithmetic as one function), `Pieces` and `Payload` (what one run of the body stores, as values), `Accum` (the
  accumulator by induction over the grid), `Final` (the output array), `Tail` (the kernel's result), `RefSide` (the
  reference's result). The idealization rewrote nothing, so the kernel's idealized text is its own text.
-/
import proofs.«116707_j14628658610180_2_alg».proof.Defs
import proofs.«116707_j14628658610180_2_alg».proof.Proof.Gen.Kernel
import proofs.«116707_j14628658610180_2_alg».proof.Proof.Gen.Kernel.Skeleton
import proofs.«116707_j14628658610180_2_alg».proof.Proof.Gen.Kernel.Launch
import proofs.«116707_j14628658610180_2_alg».proof.Proof.Gen.Kernel.Points
import proofs.«116707_j14628658610180_2_alg».proof.Proof.Gen.Kernel.Frame
import proofs.«116707_j14628658610180_2_alg».proof.Proof.Gen.KernelIdeal
import proofs.«116707_j14628658610180_2_alg».proof.Proof.Gen.KernelIdeal.Skeleton
import proofs.«116707_j14628658610180_2_alg».proof.Proof.Gen.KernelIdeal.Launch
import proofs.«116707_j14628658610180_2_alg».proof.Proof.Gen.KernelIdeal.Points
import proofs.«116707_j14628658610180_2_alg».proof.Proof.Gen.KernelIdeal.Frame
import proofs.«116707_j14628658610180_2_alg».proof.Proof.Gen.ReferenceIdeal
import proofs.«116707_j14628658610180_2_alg».proof.Proof.Gen.ReferenceIdeal.Run
import proofs.«116707_j14628658610180_2_alg».proof.Proof.Gen.ReferenceIdeal.Read
import proofs.«116707_j14628658610180_2_alg».proof.Proof.Gen.Pre_finite_inputs
import proofs.«116707_j14628658610180_2_alg».proof.Proof.Tail
import proofs.«116707_j14628658610180_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments both programs end at the closing arithmetic of the one sum of squared
    differences. -/
theorem algebraic : Cert.algebraic_KernelIdeal_ReferenceIdeal := by
  intro m ρ m' ρ' _ hagree
  refine ⟨fun c => Cert.SumSq.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
